-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S64x128 .f32) (main_arg6 : FVec F S64x128 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S4000x128 : Shape := ⟨2, ![4000, 128]⟩
abbrev S128x64 : Shape := ⟨2, ![128, 64]⟩
abbrev S1x64 : Shape := ⟨2, ![1, 64]⟩
abbrev S100000x64 : Shape := ⟨2, ![100000, 64]⟩
abbrev S4000x64 : Shape := ⟨2, ![4000, 64]⟩
abbrev S1600000x64 : Shape := ⟨2, ![1600000, 64]⟩

abbrev nBuf : Space → Nat
  | .hbm => 92
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x128, .bf16⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .bf16⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S100000x128, .f32⟩
  | .hbm, ⟨46, _⟩ => ⟨S100000x128, .bf16⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .bf16⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S128x64, .f32⟩
  | .hbm, ⟨65, _⟩ => ⟨S128x64, .f32⟩
  | .hbm, ⟨66, _⟩ => ⟨S1x64, .f32⟩
  | .hbm, ⟨67, _⟩ => ⟨S100000x64, .f32⟩
  | .hbm, ⟨68, _⟩ => ⟨S100000x64, .bf16⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .bf16⟩
  | .hbm, ⟨78, _⟩ => ⟨S1600000x64, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x64, .bf16⟩
  | .hbm, ⟨88, _⟩ => ⟨S1600000x64, .f32⟩
  | .hbm, ⟨89, _⟩ => ⟨S1600000x64, .f32⟩
  | .hbm, ⟨90, _⟩ => ⟨S_, .f32⟩
  | .hbm, ⟨91, _⟩ => ⟨S1600000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_8 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  reducesTo_S1600000x64_S1600000_d1 : S1600000x64.ReducesTo [1] S1600000
  h_S_ : 0 < S_.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

abbrev win0_0 : Pipeline.Window sig grid0 :=
  Pipeline.Window.ofSpec (Memref.whole main_v26) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S128x64, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x64, .f32⟩
  | .hbm, ⟨99, _⟩ => ⟨S1600000x64, .f32⟩
  | .hbm, ⟨100, _⟩ => ⟨S_, .f32⟩
  | .hbm, ⟨101, _⟩ => ⟨S1600000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S1600000x64_S1600000_d1 : S1600000x64.ReducesTo [1] S1600000
  h_S_ : 0 < S_.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

class Facts : Prop extends Facts₀ where

variable [Facts]
-- ==== Proof.KernelRun.lean ====
/-
  The idealized kernel's run, with its result named.

  The program is five stretches in a row: host operations, the first layer's pallas_call, host operations, the second
  layer's pallas_call, host operations.  Between two stretches the TensorCore holds every unscoped buffer at a known
  valuation: the launch memory, then that memory pushed through each stretch in turn (a host stretch applies its
  operations; a pallas_call replaces its output array by what its write-backs leave).  Every weakly fair execution
  therefore ends with each unscoped buffer at the last valuation of the chain; read at the result buffer this names
  the result, and read at an argument it is the launch contents.
-/
import proofs.«182080_j81243601371376_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is unscoped, so the last thread state holds it. -/
theorem result_mem_uc : Proc.devRef .tc main_v68 ∈ Pipeline.ucRefs τ sig := mem_uc main_v68 (by decide)

set_option backward.isDefEq.respectTransparency.types false in
/-- Every weakly fair execution terminates without a fault; the result buffer ends at the last valuation of the chain
    and every argument array ends as launched. -/
theorem run : θ_run defs (onTc (τ := τ) (main (F := F))) ⟨m, fun _ => 0, ρ⟩ (fun r => ∀ c : Dev nD,
      r.2.mem ((c.tc : Thread nD τ).loc main_v68) = W5 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit (pcfgs (F := F)) adm (pdats m ρ) () cellOf_inj emb₁ defs₀ 𝒱₀ L lv m ρ main (segs m ρ)
    (fun c Q => by rw [main_run m ρ c]) ?nodup (O₀ := 0) (hL := fun _ _ => rfl) (G := fun _ => iprop(emp))
    (u₀ := initOf (Pipeline.cells cfgs cellOf_inj) (Pipeline.launchToks cfgs cellOf_inj)) (hu₀ := ?launch)
    (T₀ := fun c => iprop(StableHlo.held (c : Thread nD τ) (Pipeline.ucRefs τ sig) (W0 m ρ c) ∗ R c)) (Tₙ := Tₙ m ρ)
    (hch := ?chain) (hinit := ?init)
    (QY := fun c s => ∀ b ∈ Pipeline.ucRefs τ sig, s.mem (((c : Thread nD τ)).1, b) = W5 m ρ c b)
    (hfin := ?fin) (hQ := ?post)
  case nodup =>
    -- each pipeline is entered once
    simp only [segs, Pipeline.Seg.pipes_host, Pipeline.Seg.pipes_region, Pipeline.Seg.pipes_nil]; decide
  case launch =>
    -- the launch element is the pipeline library's own; no core is given anything else
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case chain =>
    -- each stretch is entered from exactly what the one before it leaves; the last leaves the final valuation
    refine ⟨fun _ => .rfl, fun _ => .rfl, fun _ => .rfl, fun _ => .rfl, fun _ => .rfl, fun c => ?_⟩
    dsimp only [Pipeline.Seg.post, hseg, Pipeline.HostSeg.ofOps]
    iintro ⟨Hh, Hp, HO⟩
    isplitl [Hh Hp]
    · isplitl [Hh]; · iexact Hh
      iexact Hp
    iexact HO
  case init =>
    -- at launch a core holds its unscoped buffers at the launch memory, its generator register, and owes nothing
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case fin =>
    -- holding the buffers at the final valuation, the physical memory agrees with it on each of them
    intro c s'
    iintro ⟨⟨Hh, -⟩, HSI⟩
    unfold StableHlo.held
    imodintro
    iapply (pointsTo_read_all (Pipeline.ucRefs τ sig) (fun b => (((c : Thread nD τ)).1, b)) (W5 m ρ c) s')
    isplitl [Hh] <;> iassumption
  case post =>
    intro s h c
    exact ⟨h c _ (result_mem_uc),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩

end Cert.KernelIdeal.ValueRun

end
-- ==== Proof.KernelHost.lean ====
/-
  The host side of the idealized kernel, as whole-array functions of the edge list and a feature table.

  `edges` is the 2 × E table of edge endpoints: row 0 the sources, row 1 the targets.  A source is wrapped (a negative
  number has the node count added) before it is used to gather rows; a target is used raw to scatter-add rows, and
  wrapped when it gathers.  The degree of a node is the number of edges that scatter into it, computed by
  scatter-adding ones; it is clamped below by one.  The kernel multiplies a node's summed neighbour rows by the
  reciprocal of its clamped degree.  Around each gather the kernel rounds the table to bf16 and widens the gathered
  rows back, both the identity on extended reals.
-/
import proofs.«182080_j81243601371376_2_alg».proof.Proof.Gen.KernelIdeal
import Idealize.ShloMosaic.PureOps.Ideal

noncomputable section

namespace Cert.KernelIdeal.HostSide

open Cert.KernelIdeal Cert.KernelIdeal.Gen Idealize.ShloMosaic

abbrev Edges := (⟨S2x1600000, .i32⟩ : BufTy).Contents (Elt Ideal)
abbrev EdgeVec := (⟨S1600000, .i32⟩ : BufTy).Contents (Elt Ideal)
abbrev EdgeCol := (⟨S1600000x1, .i32⟩ : BufTy).Contents (Elt Ideal)

/-- The sources: row 0 of the edge table, as a vector. -/
def src (edges : Edges) : EdgeVec :=
  shapeCast S1600000 (extractStridedSlice S1x1600000 ![0, 0] edges slices_S2x1600000_S1x1600000_0_0) shapeCasts_S1x1600000_S1600000

/-- The targets: row 1. -/
def dst (edges : Edges) : EdgeVec :=
  shapeCast S1600000 (extractStridedSlice S1x1600000 ![1, 0] edges slices_S2x1600000_S1x1600000_1_0) shapeCasts_S1x1600000_S1600000

/-- A vector of node numbers with the negative ones wrapped by the node count, as a column. -/
def wrapCol (v : EdgeVec) : EdgeCol :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- A vector of node numbers as a column, unwrapped. -/
def rawCol (v : EdgeVec) : EdgeCol := broadcastInDim S1600000x1 ![0] bcast_S1600000_S1600000x1_0 v

/-- The all-ones vector over the nodes. -/
def onesN : FVec Ideal S100000 .f32 := broadcastInDim S100000 ![] bcast_S_S100000 (constant S_ .f32 0x3F800000#32)

/-- Each node's degree (ones scatter-added at the targets), clamped below by one. -/
def degMax (edges : Edges) : FVec Ideal S100000 .f32 :=
  maximumf (Host.scatterAdd scatter_S100000_S1600000x1_S1600000_n_0_0_1
      (broadcastInDim S100000 ![] bcast_S_S100000 (constant S_ .f32 0x00000000#32)) (rawCol (dst edges))
      (broadcastInDim S1600000 ![] bcast_S_S1600000 (constant S_ .f32 0x3F800000#32)))
    onesN

/-- The reciprocal of the clamped degree. -/
def degInv (edges : Edges) : FVec Ideal S100000 .f32 := Host.divf onesN (degMax edges)

/-- The rows of a 128-column table gathered at the wrapped sources and scatter-added at the targets. -/
def neighbourSum (feat : FVec Ideal S100000x128 .f32) (edges : Edges) : FVec Ideal S100000x128 .f32 :=
  Host.scatterAdd scatter_S100000x128_S1600000x1_S1600000x128_1_0_0_1
    (broadcastInDim S100000x128 ![] bcast_S_S100000x128 (constant S_ .f32 0x00000000#32)) (rawCol (dst edges))
    (extf .f32 (Host.gather gather_S100000x128_S1600000x1_S1600000x128_1_0_n_n_0_1_1128 (truncf .bf16 feat bitsLt_bf16_f32) (wrapCol (src edges))) bitsLt_bf16_f32)

/-- The neighbourhood mean as the kernel takes it: the neighbour sum times the reciprocal degree of the row. -/
def meanByRecip (feat : FVec Ideal S100000x128 .f32) (edges : Edges) : FVec Ideal S100000x128 .f32 :=
  mulf (neighbourSum feat edges)
    (broadcastInDim S100000x128 ![0, 1] bcast_S100000x1_S100000x128_0_1 (broadcastInDim S100000x1 ![0] bcast_S100000_S100000x1_0 (degInv edges)))

/-- The edge scores: for each edge the inner product of the 64-column rows of its two (wrapped) endpoints. -/
def edgeScores (z : FVec Ideal S100000x64 .f32) (edges : Edges) : FVec Ideal S1600000 .f32 :=
  Host.reduceAdd
    (mulf
      (extf .f32 (Host.gather gather_S100000x64_S1600000x1_S1600000x64_1_0_n_n_0_1_164 (truncf .bf16 z bitsLt_bf16_f32) (wrapCol (src edges))) bitsLt_bf16_f32)
      (extf .f32 (Host.gather gather_S100000x64_S1600000x1_S1600000x64_1_0_n_n_0_1_164 (truncf .bf16 z bitsLt_bf16_f32) (wrapCol (dst edges))) bitsLt_bf16_f32))
    (constant S_ .f32 0x00000000#32) reducesTo_S1600000x64_S1600000_d1 h_S_

end Cert.KernelIdeal.HostSide

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«182080_j81243601371376_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibDenseLayer.lean ====
/-
  One dense layer (two matrix products sharing an output, plus a bias row), entry by entry; generic in the extents.

  A layer takes the neighbourhood means `a` and the nodes' own features `x` (both N × K), two K × D weight matrices
  and a bias row, and gives the N × D array whose entry (n, j) is

      Σ_k a(n,k) · wl(k,j)  +  Σ_k x(n,k) · wr(k,j)  +  b(j).

  The two programs group this sum differently: one adds the bias after both products, the other between them.
  Addition of extended reals is commutative and associative without any finiteness assumption, so the two groupings
  agree everywhere.
-/
import Idealize.ShloMosaic.PureOps.Ideal.Laws
import Idealize.ShloMosaic.Lib.ValueIdx
import Idealize.ShloMosaic.Lib.Pipeline.Value
import proofs.«182080_j81243601371376_2_alg».proof.Proof.LibPlainDotFormats
import proofs.«182080_j81243601371376_2_alg».proof.Proof.LibRowLayout

noncomputable section

namespace Cert.LibDenseLayer

open Idealize.ShloMosaic Idealize.ShloMosaic.ValueIdx Cert.LibPlainDot

variable {N K D : ℕ}

/-- Entry (n, j) of a dense layer: both products, then the bias of column j. -/
def dense (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => (∑ k : Fin K, a (ix2 (i 0) k) * wl (ix2 k (i 1)) + ∑ k : Fin K, x (ix2 (i 0) k) * wr (ix2 k (i 1)))
    + b (ix2 (0 : Fin 1) (i 1))

/-- The same layer followed by the rectifier: the larger of the entry and zero (zero kept as the f32 zero word). -/
def denseRelu (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => max (dense a x wl wr b i) (Ideal.ofBits .f32 0x00000000#32)

theorem dense_ix2 (a x : (⟨2, ![N, K]⟩ : Shape).Idx → EReal) (wl wr : (⟨2, ![K, D]⟩ : Shape).Idx → EReal)
    (b : (⟨2, ![1, D]⟩ : Shape).Idx → EReal) (n : Fin N) (j : Fin D) :
    dense a x wl wr b (ix2 n j)
      = (∑ k : Fin K, a (ix2 n k) * wl (ix2 k j) + ∑ k : Fin K, x (ix2 n k) * wr (ix2 k j)) + b (ix2 (0 : Fin 1) j) := rfl

/-- A vector [D] laid out as a row [1, D] by a broadcast along a new leading axis reads, at (u, j), entry j. -/
theorem bcast_vec_row_apply {α : Type} (h : (⟨1, ![D]⟩ : Shape).BroadcastsInDim ⟨2, ![1, D]⟩ (![1] : Fin 1 → Fin 2))
    (v : (⟨1, ![D]⟩ : Shape).Idx → α) (u : Fin 1) (j : Fin D) :
    broadcastInDim ⟨2, ![1, D]⟩ ![1] h v (ix2 u j) = v (ix1 j) := by
  refine broadcastInDim_apply _ h v _ (ix1 j) fun ax => ?_
  match ax with
  | ⟨0, _⟩ =>
    show j.val = if D = 1 then 0 else j.val
    split
    · have := j.isLt; omega
    · rfl

/-- A row [1, D] repeated over N rows reads, at (n, j), the row's entry j. -/
theorem bcast_row_rows_apply {α : Type} (h : (⟨2, ![1, D]⟩ : Shape).BroadcastsInDim ⟨2, ![N, D]⟩ (![0, 1] : Fin 2 → Fin 2))
    (r : (⟨2, ![1, D]⟩ : Shape).Idx → α) (n : Fin N) (j : Fin D) :
    broadcastInDim ⟨2, ![N, D]⟩ ![0, 1] h r (ix2 n j) = r (ix2 (0 : Fin 1) j) := by
  refine broadcastInDim_apply _ h r _ (ix2 (0 : Fin 1) j) fun ax => ?_
  match ax with
  | ⟨0, _⟩ => rfl
  | ⟨1, _⟩ =>
    show j.val = if D = 1 then 0 else j.val
    split
    · have := j.isLt; omega
    · rfl

/-- The host form of the layer — product, bias added, second product added — is `dense`: at an entry both
    contractions are plain sums over k, the doubly broadcast bias reads its entry j, and the three summands are
    regrouped by commutativity and associativity of addition on the extended reals. -/
theorem host_dense {Dd : DotDims ⟨2, ![N, K]⟩ ⟨2, ![K, D]⟩ ⟨2, ![N, D]⟩} (hD : Plain Dd)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩) :
    addf (addf (FloatOps.dotGeneral Dd none .single a wl)
        (broadcastInDim ⟨2, ![N, D]⟩ ![0, 1] h2 (broadcastInDim ⟨2, ![1, D]⟩ ![1] h1 b)))
      (FloatOps.dotGeneral Dd none .single x wr)
      = dense a x wl wr (shapeCast ⟨2, ![1, D]⟩ b hc) := by
  funext i
  obtain ⟨n, j, rfl⟩ : ∃ (n : Fin N) (j : Fin D), i = ix2 n j := ⟨i 0, i 1, eq_ix2 i⟩
  rw [addf_apply, addf_apply, hD.dotGeneral_apply, hD.dotGeneral_apply, bcast_row_rows_apply, bcast_vec_row_apply,
    dense_ix2, Cert.LibRowLayout.shapeCast_b_1b_apply]
  exact add_right_comm _ _ _

end Cert.LibDenseLayer

end
-- ==== Proof.KernelPayload.lean ====
/-
  What one grid point of each pallas_call computes, entry by entry.

  A point of the first call holds a block of 4000 rows of the neighbourhood means and of the node features, the
  two whole weight matrices and the bias row.  It rounds the four matrix operands to bf16 (the identity on extended
  reals), multiplies each feature block by its weight matrix into a zero accumulator, adds the two products, adds the
  bias row to every row, and takes the larger of that and zero.  Entry (p, q) of the stored block is therefore the
  rectified dense layer of the blocks.  The second call is the same without the rectifier and with 64 output columns.
-/
import proofs.«182080_j81243601371376_2_alg».proof.Proof.Gen.KernelIdeal.Skeleton
import proofs.«182080_j81243601371376_2_alg».proof.Proof.LibDenseLayer

noncomputable section

namespace Cert.KernelIdeal.Payload

open Cert.KernelIdeal Cert.KernelIdeal.Gen Idealize.ShloMosaic Idealize.ShloMosaic.ValueIdx Cert.LibPlainDot Cert.LibDenseLayer

/-- Both contractions are plain matrix products: second axis of the left operand against the first of the right. -/
theorem plain128 : Plain dot_S4000x128_S128x128_S4000x128_1_0_0_1_n_n := ⟨rfl, rfl, rfl, rfl, rfl, rfl⟩
theorem plain64 : Plain dot_S4000x128_S128x64_S4000x64_1_0_0_1_n_n := ⟨rfl, rfl, rfl, rfl, rfl, rfl⟩

/-- The block the first call stores is the rectified dense layer of the blocks it loaded. -/
theorem layer1_block (x0 x1 : Vec Ideal S4000x128 .f32) (x2 x3 : Vec Ideal S128x128 .f32) (x4 : Vec Ideal S1x128 .f32) :
    k0_pay1 x0 x1 x2 x3 x4 = denseRelu x0 x1 x2 x3 x4 := by
  funext i
  obtain ⟨p, q, rfl⟩ : ∃ (p : Fin 4000) (q : Fin 128), i = ix2 p q := ⟨i 0, i 1, eq_ix2 i⟩
  unfold k0_pay1 matmul
  rw [maximumf_apply, addf_apply, addf_apply, broadcast_apply, plain128.matmul_zero_apply_formats,
    plain128.matmul_zero_apply_formats, Cert.LibRowLayout.broadcastTo_1b_ab_apply]
  simp only [truncf_apply, shapeCast_self]
  rfl

/-- The block the second call stores is the dense layer of the blocks it loaded. -/
theorem layer2_block (x0 x1 : Vec Ideal S4000x128 .f32) (x2 x3 : Vec Ideal S128x64 .f32) (x4 : Vec Ideal S1x64 .f32) :
    k1_pay1 x0 x1 x2 x3 x4 = dense x0 x1 x2 x3 x4 := by
  funext i
  obtain ⟨p, q, rfl⟩ : ∃ (p : Fin 4000) (q : Fin 64), i = ix2 p q := ⟨i 0, i 1, eq_ix2 i⟩
  unfold k1_pay1 matmul
  rw [addf_apply, addf_apply, plain64.matmul_zero_apply_formats, plain64.matmul_zero_apply_formats,
    Cert.LibRowLayout.broadcastTo_1b_ab_apply]
  simp only [truncf_apply, shapeCast_self]
  rfl

end Cert.KernelIdeal.Payload

end
-- ==== Proof.KernelBlocks0.lean ====
/-
  The first pallas_call's output array, whole.

  The call walks 25 grid points; point t loads rows 4000·t … 4000·t + 3999 of the neighbourhood means and of the node
  features, the two whole weight matrices and the bias row, and writes back rows 4000·t … 4000·t + 3999 of the output.
  A dense layer's entry (n, j) depends only on row n of the two feature arrays, so the block point t writes back is
  exactly the rows 4000·t … of the rectified dense layer of the WHOLE arrays.  The 25 row blocks tile the 100000 rows:
  row n lies in the block of point n / 4000.  Hence after the call the output array is the rectified dense layer of
  the arrays the call found on entry.
-/
import proofs.«182080_j81243601371376_2_alg».proof.Proof.Gen.KernelIdeal.Frame
import proofs.«182080_j81243601371376_2_alg».proof.Proof.KernelPayload

set_option maxRecDepth 16384

noncomputable section

namespace Cert.KernelIdeal.Blocks

open Cert.KernelIdeal Cert.KernelIdeal.Gen Cert.KernelIdeal.Payload Cert.LibDenseLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_origin : (![0, 0] : Fin 2 → Nat) = fun _ => 0 := funext fun a => by fin_cases a <;> rfl

/-- The block index maps of the first call, decided over its 25 points: the row-blocked windows sit at block row t,
    the whole-array windows at the origin. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 4000·t + p of the array. -/
def rowAt0 (t : Fin cfg0.N) (p : Fin 4000) : Fin 100000 :=
  ⟨t.val * 4000 + p.val, by
    have ht : t.val < 25 := lt_of_lt_of_eq t.isLt N_0
    have hp := p.isLt
    omega⟩

/-- A dense layer of row blocks is the corresponding rows of the dense layer of the whole arrays. -/
theorem denseRelu_rows {N R K D : ℕ} (A X : (⟨2, ![N, K]⟩ : Shape).Idx → EReal) (wl wr : (⟨2, ![K, D]⟩ : Shape).Idx → EReal)
    (b : (⟨2, ![1, D]⟩ : Shape).Idx → EReal) (σ : Fin R → Fin N) (j : (⟨2, ![R, D]⟩ : Shape).Idx) :
    denseRelu (fun y : (⟨2, ![R, K]⟩ : Shape).Idx => A (ix2 (σ (y 0)) (y 1))) (fun y : (⟨2, ![R, K]⟩ : Shape).Idx => X (ix2 (σ (y 0)) (y 1))) wl wr b j
      = denseRelu A X wl wr b (ix2 (σ (j 0)) (j 1)) := rfl

theorem dense_rows {N R K D : ℕ} (A X : (⟨2, ![N, K]⟩ : Shape).Idx → EReal) (wl wr : (⟨2, ![K, D]⟩ : Shape).Idx → EReal)
    (b : (⟨2, ![1, D]⟩ : Shape).Idx → EReal) (σ : Fin R → Fin N) (j : (⟨2, ![R, D]⟩ : Shape).Idx) :
    dense (fun y : (⟨2, ![R, K]⟩ : Shape).Idx => A (ix2 (σ (y 0)) (y 1))) (fun y : (⟨2, ![R, K]⟩ : Shape).Idx => X (ix2 (σ (y 0)) (y 1))) wl wr b j
      = dense A X wl wr b (ix2 (σ (j 0)) (j 1)) := rfl

/-- The means' block at point t: rows 4000·t … of the means. -/
theorem block0_means (c : Dev nD) (t : Fin cfg0.N) :
    iblk0 V c 0 t = fun y : S4000x128.Idx => V c main_v26 (ix2 (rowAt0 t (y 0)) (y 1)) := by
  obtain ⟨e0, e1, -⟩ := index_facts0 t
  funext y
  show V c main_v26 (((cfg0.win 0).blk t).view.emb y) = _
  refine congrArg (V c main_v26) (funext fun a => Fin.ext ?_)
  match a with
  | ⟨0, _⟩ => show win0_0.index t (0 : Fin 2) * 4000 + 1 * (y 0).val = t.val * 4000 + (y 0).val; rw [e0]; omega
  | ⟨1, _⟩ => show win0_0.index t (1 : Fin 2) * 128 + 1 * (y 1).val = (y 1).val; rw [e1]; omega

/-- The features' block at point t: rows 4000·t … of the features. -/
theorem block0_feats (c : Dev nD) (t : Fin cfg0.N) :
    iblk0 V c 1 t = fun y : S4000x128.Idx => V c main_arg0 (ix2 (rowAt0 t (y 0)) (y 1)) := by
  obtain ⟨-, -, e0, e1, -⟩ := index_facts0 t
  funext y
  show V c main_arg0 (((cfg0.win 1).blk t).view.emb y) = _
  refine congrArg (V c main_arg0) (funext fun a => Fin.ext ?_)
  match a with
  | ⟨0, _⟩ => show win0_1.index t (0 : Fin 2) * 4000 + 1 * (y 0).val = t.val * 4000 + (y 0).val; rw [e0]; omega
  | ⟨1, _⟩ => show win0_1.index t (1 : Fin 2) * 128 + 1 * (y 1).val = (y 1).val; rw [e1]; omega

/-- The left weights' block at every point: the whole matrix. -/
theorem block0_wl (c : Dev nD) (t : Fin cfg0.N) : iblk0 V c 2 t = V c main_v27 := by
  obtain ⟨-, -, -, -, e0, e1, -⟩ := index_facts0 t
  funext y
  show V c main_v27 (((cfg0.win 2).blk t).view.emb y) = V c main_v27 y
  refine congrArg (V c main_v27) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The right weights' block at every point: the whole matrix. -/
theorem block0_wr (c : Dev nD) (t : Fin cfg0.N) : iblk0 V c 3 t = V c main_v28 := by
  obtain ⟨-, -, -, -, -, -, e0, e1, -⟩ := index_facts0 t
  funext y
  show V c main_v28 (((cfg0.win 3).blk t).view.emb y) = V c main_v28 y
  refine congrArg (V c main_v28) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row's block at every point: the whole row. -/
theorem block0_bias (c : Dev nD) (t : Fin cfg0.N) : iblk0 V c 4 t = V c main_v29 := by
  obtain ⟨-, -, -, -, -, -, -, -, e0, e1, -⟩ := index_facts0 t
  funext y
  show V c main_v29 (((cfg0.win 4).blk t).view.emb y) = V c main_v29 y
  refine congrArg (V c main_v29) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The first layer of the arrays the call finds on entry. -/
def layer1 (c : Dev nD) : S100000x128.Idx → EReal :=
  denseRelu (V c main_v26) (V c main_arg0) (V c main_v27) (V c main_v28) (V c main_v29)

/-- What point t writes back is block t of the first layer of the entry arrays. -/
theorem flushed0 (c : Dev nD) (t : Fin cfg0.N) :
    (dat0 V c).flushed 5 t = ((cfg0.win 5).blk t).view.read (Elt Ideal) (layer1 V c) := by
  show (cfg0.win 5).cut (grid0.coords t) ((dat0 V c).after 5 t) = _
  rw [after0_5]
  unfold out0_5
  rw [View.canon_unit_zero zero_origin]
  simp only [View.ld_unit_zero (S := S4000x128) zero_origin, View.ld_unit_zero (S := S128x128) zero_origin,
    View.ld_unit_zero (S := S1x128) zero_origin]
  rw [layer1_block, block0_means, block0_feats, block0_wl, block0_wr, block0_bias]
  obtain ⟨-, -, -, -, -, -, -, -, -, -, e0, e1⟩ := index_facts0 t
  funext j
  show denseRelu (fun y : S4000x128.Idx => V c main_v26 (ix2 (rowAt0 t (y 0)) (y 1)))
      (fun y : S4000x128.Idx => V c main_arg0 (ix2 (rowAt0 t (y 0)) (y 1))) (V c main_v27) (V c main_v28) (V c main_v29) j
    = layer1 V c (((cfg0.win 5).blk t).view.emb j)
  refine (denseRelu_rows (N := 100000) (R := 4000) (K := 128) (D := 128) (V c main_v26) (V c main_arg0) (V c main_v27)
    (V c main_v28) (V c main_v29) (rowAt0 t) j).trans ?_
  unfold layer1
  refine congrArg _ (funext fun a => Fin.ext ?_)
  match a with
  | ⟨0, _⟩ => show t.val * 4000 + (j 0).val = win0_5.index t (0 : Fin 2) * 4000 + 1 * (j 0).val; rw [e0]; omega
  | ⟨1, _⟩ => show (j 1).val = win0_5.index t (1 : Fin 2) * 128 + 1 * (j 1).val; rw [e1]; omega

/-- An index is in point t's output block iff each coordinate is in the block's range on its axis. -/
theorem mem_block0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v30).slice (win0_5.rect t)).set ↔ _
  rw [View.set_slice_whole, Rect.mem_set_unit]
  exact Iff.rfl

/-- Every index of the output array lies in the block of the point its row selects. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, -, -, -, -, e0, e1⟩ := index_facts0 t
  have ht : t.val = (i 0).val / 4000 := rfl
  refine ⟨t, flush0_5 t, ?_⟩
  rw [mem_block0]
  intro a
  match a with
  | ⟨0, _⟩ => show win0_5.index t (0 : Fin 2) * 4000 ≤ (i 0).val ∧ (i 0).val < win0_5.index t (0 : Fin 2) * 4000 + 4000; rw [e0, ht]; omega
  | ⟨1, _⟩ => show win0_5.index t (1 : Fin 2) * 128 ≤ (i 1).val ∧ (i 1).val < win0_5.index t (1 : Fin 2) * 128 + 128; rw [e1]; omega

/-- After the call its output array is the first layer of the arrays it found on entry. -/
theorem final0 (c : Dev nD) : (dat0 V c).arrAt 5 cfg0.N = layer1 V c :=
  (dat0 V c).arrAt_eq_of_cover 5 (layer1 V c) (fun t _ => flushed0 V c t) cover0

end Cert.KernelIdeal.Blocks

end
-- ==== Proof.KernelBlocks1.lean ====
/-
  The second pallas_call's output array, whole.

  The same walk as the first call's: 25 grid points, point t loading rows 4000·t … 4000·t + 3999 of the second
  neighbourhood means and of the first layer's output, the two whole 128 × 64 weight matrices and the bias row, and
  writing back the same rows of the 64-column output.  The block a point writes back is those rows of the dense layer
  (not rectified) of the whole arrays, and the 25 blocks tile the rows; so after the call the output array is the
  dense layer of the arrays the call found on entry.
-/
import proofs.«182080_j81243601371376_2_alg».proof.Proof.KernelBlocks0

set_option maxRecDepth 16384

noncomputable section

namespace Cert.KernelIdeal.Blocks

open Cert.KernelIdeal Cert.KernelIdeal.Gen Cert.KernelIdeal.Payload Cert.LibDenseLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block index maps of the second call, decided over its 25 points: the row-blocked windows sit at block row t,
    the whole-array windows at the origin. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row 4000·t + p of the array. -/
def rowAt1 (t : Fin cfg1.N) (p : Fin 4000) : Fin 100000 :=
  ⟨t.val * 4000 + p.val, by
    have ht : t.val < 25 := lt_of_lt_of_eq t.isLt N_1
    have hp := p.isLt
    omega⟩

/-- The block of the second neighbourhood means at point t: rows 4000·t … of them. -/
theorem block1_means (c : Dev nD) (t : Fin cfg1.N) :
    iblk1 V c 0 t = fun y : S4000x128.Idx => V c main_v45 (ix2 (rowAt1 t (y 0)) (y 1)) := by
  obtain ⟨e0, e1, -⟩ := index_facts1 t
  funext y
  show V c main_v45 (((cfg1.win 0).blk t).view.emb y) = _
  refine congrArg (V c main_v45) (funext fun a => Fin.ext ?_)
  match a with
  | ⟨0, _⟩ => show win1_0.index t (0 : Fin 2) * 4000 + 1 * (y 0).val = t.val * 4000 + (y 0).val; rw [e0]; omega
  | ⟨1, _⟩ => show win1_0.index t (1 : Fin 2) * 128 + 1 * (y 1).val = (y 1).val; rw [e1]; omega

/-- The block of the first layer's output at point t: rows 4000·t … of it (this call's own-feature operand). -/
theorem block1_feats (c : Dev nD) (t : Fin cfg1.N) :
    iblk1 V c 1 t = fun y : S4000x128.Idx => V c main_v30 (ix2 (rowAt1 t (y 0)) (y 1)) := by
  obtain ⟨-, -, e0, e1, -⟩ := index_facts1 t
  funext y
  show V c main_v30 (((cfg1.win 1).blk t).view.emb y) = _
  refine congrArg (V c main_v30) (funext fun a => Fin.ext ?_)
  match a with
  | ⟨0, _⟩ => show win1_1.index t (0 : Fin 2) * 4000 + 1 * (y 0).val = t.val * 4000 + (y 0).val; rw [e0]; omega
  | ⟨1, _⟩ => show win1_1.index t (1 : Fin 2) * 128 + 1 * (y 1).val = (y 1).val; rw [e1]; omega

/-- The left weights' block at every point: the whole matrix. -/
theorem block1_wl (c : Dev nD) (t : Fin cfg1.N) : iblk1 V c 2 t = V c main_v46 := by
  obtain ⟨-, -, -, -, e0, e1, -⟩ := index_facts1 t
  funext y
  show V c main_v46 (((cfg1.win 2).blk t).view.emb y) = V c main_v46 y
  refine congrArg (V c main_v46) (funext fun a => Fin.ext ?_)
  match a with
  | ⟨0, _⟩ => show win1_2.index t (0 : Fin 2) * 128 + 1 * (y 0).val = (y 0).val; rw [e0]; omega
  | ⟨1, _⟩ => show win1_2.index t (1 : Fin 2) * 64 + 1 * (y 1).val = (y 1).val; rw [e1]; omega

/-- The right weights' block at every point: the whole matrix. -/
theorem block1_wr (c : Dev nD) (t : Fin cfg1.N) : iblk1 V c 3 t = V c main_v47 := by
  obtain ⟨-, -, -, -, -, -, e0, e1, -⟩ := index_facts1 t
  funext y
  show V c main_v47 (((cfg1.win 3).blk t).view.emb y) = V c main_v47 y
  refine congrArg (V c main_v47) (funext fun a => Fin.ext ?_)
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

/-- The bias row's block at every point: the whole row. -/
theorem block1_bias (c : Dev nD) (t : Fin cfg1.N) : iblk1 V c 4 t = V c main_v48 := by
  obtain ⟨-, -, -, -, -, -, -, -, e0, e1, -⟩ := index_facts1 t
  funext y
  show V c main_v48 (((cfg1.win 4).blk t).view.emb y) = V c main_v48 y
  refine congrArg (V c main_v48) (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- The second layer of the arrays the call finds on entry. -/
def layer2 (c : Dev nD) : S100000x64.Idx → EReal :=
  dense (V c main_v45) (V c main_v30) (V c main_v46) (V c main_v47) (V c main_v48)

/-- What point t writes back is block t of the second layer of the entry arrays. -/
theorem flushed1 (c : Dev nD) (t : Fin cfg1.N) :
    (dat1 V c).flushed 5 t = ((cfg1.win 5).blk t).view.read (Elt Ideal) (layer2 V c) := by
  show (cfg1.win 5).cut (grid1.coords t) ((dat1 V c).after 5 t) = _
  rw [after1_5]
  unfold out1_5
  rw [View.canon_unit_zero zero_origin]
  simp only [View.ld_unit_zero (S := S4000x128) zero_origin, View.ld_unit_zero (S := S128x64) zero_origin,
    View.ld_unit_zero (S := S1x64) zero_origin]
  rw [layer2_block, block1_means, block1_feats, block1_wl, block1_wr, block1_bias]
  obtain ⟨-, -, -, -, -, -, -, -, -, -, e0, e1⟩ := index_facts1 t
  funext j
  show dense (fun y : S4000x128.Idx => V c main_v45 (ix2 (rowAt1 t (y 0)) (y 1)))
      (fun y : S4000x128.Idx => V c main_v30 (ix2 (rowAt1 t (y 0)) (y 1))) (V c main_v46) (V c main_v47) (V c main_v48) j
    = layer2 V c (((cfg1.win 5).blk t).view.emb j)
  refine (dense_rows (N := 100000) (R := 4000) (K := 128) (D := 64) (V c main_v45) (V c main_v30) (V c main_v46)
    (V c main_v47) (V c main_v48) (rowAt1 t) j).trans ?_
  unfold layer2
  refine congrArg _ (funext fun a => Fin.ext ?_)
  match a with
  | ⟨0, _⟩ => show t.val * 4000 + (j 0).val = win1_5.index t (0 : Fin 2) * 4000 + 1 * (j 0).val; rw [e0]; omega
  | ⟨1, _⟩ => show (j 1).val = win1_5.index t (1 : Fin 2) * 64 + 1 * (j 1).val; rw [e1]; omega

/-- An index is in point t's output block iff each coordinate is in the block's range on its axis. -/
theorem mem_block1 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v49).slice (win1_5.rect t)).set ↔ _
  rw [View.set_slice_whole, Rect.mem_set_unit]
  exact Iff.rfl

/-- Every index of the output array lies in the block of the point its row selects. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  let t : Fin cfg1.N := ⟨(i 0).val / 4000, by rw [hN]; omega⟩
  obtain ⟨-, -, -, -, -, -, -, -, -, -, e0, e1⟩ := index_facts1 t
  have ht : t.val = (i 0).val / 4000 := rfl
  refine ⟨t, flush1_5 t, ?_⟩
  rw [mem_block1]
  intro a
  match a with
  | ⟨0, _⟩ => show win1_5.index t (0 : Fin 2) * 4000 ≤ (i 0).val ∧ (i 0).val < win1_5.index t (0 : Fin 2) * 4000 + 4000; rw [e0, ht]; omega
  | ⟨1, _⟩ => show win1_5.index t (1 : Fin 2) * 64 ≤ (i 1).val ∧ (i 1).val < win1_5.index t (1 : Fin 2) * 64 + 64; rw [e1]; omega

/-- After the call its output array is the second layer of the arrays it found on entry. -/
theorem final1 (c : Dev nD) : (dat1 V c).arrAt 5 cfg1.N = layer2 V c :=
  (dat1 V c).arrAt_eq_of_cover 5 (layer2 V c) (fun t _ => flushed1 V c t) cover1

end Cert.KernelIdeal.Blocks

end
-- ==== Proof.KernelFold.lean ====
/-
  The idealized kernel's result as one function of its arguments.

  The chain of valuations is read stretch by stretch.  The first host stretch leaves, besides the arguments, the source
  and target vectors, the reciprocal clamped degrees, the neighbourhood means of the node features, the two transposed
  first-layer weight matrices and the first bias as a row.  The first pallas_call leaves the rectified dense layer of
  those.  The second host stretch takes the neighbourhood means of that layer's output and prepares the second layer's
  weights and bias the same way; the second pallas_call leaves the dense layer of those; the last stretch scores the
  edges.  Buffers a stretch does not write keep their contents, which is how the source and target vectors and the
  reciprocal degrees reach the later stretches.
-/
import proofs.«182080_j81243601371376_2_alg».proof.Proof.Gen.KernelIdeal.Frame
import proofs.«182080_j81243601371376_2_alg».proof.Proof.KernelHost
import proofs.«182080_j81243601371376_2_alg».proof.Proof.KernelBlocks1

set_option maxRecDepth 16384

noncomputable section

namespace Cert.KernelIdeal.Fold

open Cert.KernelIdeal Cert.KernelIdeal.Gen Cert.KernelIdeal.HostSide Cert.KernelIdeal.Blocks Cert.LibDenseLayer
open Idealize.ShloMosaic Idealize.ShloMosaic.TcCoe Idealize.ShloMosaic.StableHlo Idealize.SL.Sem

/-! ## Each host stretch, from any entry valuation -/

section Stretches

variable (U : Valuation τ sig (Elt Ideal))

theorem front_src : after hostOps0 U (Proc.devRef .tc main_v1) = src (U (Proc.devRef .tc main_arg1)) := by
  after_results_simp <;> rfl
theorem front_dst : after hostOps0 U (Proc.devRef .tc main_v3) = dst (U (Proc.devRef .tc main_arg1)) := by
  after_results_simp <;> rfl
theorem front_degInv : after hostOps0 U (Proc.devRef .tc main_v11) = degInv (U (Proc.devRef .tc main_arg1)) := by
  after_results_simp <;> rfl
theorem front_means : after hostOps0 U (Proc.devRef .tc main_v26)
    = meanByRecip (U (Proc.devRef .tc main_arg0)) (U (Proc.devRef .tc main_arg1)) := by
  after_results_simp <;> rfl
theorem front_feats : after hostOps0 U (Proc.devRef .tc main_arg0) = U (Proc.devRef .tc main_arg0) := by
  after_results_simp <;> rfl
theorem front_wl : after hostOps0 U (Proc.devRef .tc main_v27)
    = transpose S128x128 [1, 0] (U (Proc.devRef .tc main_arg2)) transposes_S128x128_S128x128_1_0 := by
  after_results_simp <;> rfl
theorem front_wr : after hostOps0 U (Proc.devRef .tc main_v28)
    = transpose S128x128 [1, 0] (U (Proc.devRef .tc main_arg3)) transposes_S128x128_S128x128_1_0 := by
  after_results_simp <;> rfl
theorem front_bias : after hostOps0 U (Proc.devRef .tc main_v29)
    = shapeCast S1x128 (U (Proc.devRef .tc main_arg4)) shapeCasts_S128_S1x128 := by
  after_results_simp <;> rfl
theorem front_arg5 : after hostOps0 U (Proc.devRef .tc main_arg5) = U (Proc.devRef .tc main_arg5) := by
  after_results_simp <;> rfl
theorem front_arg6 : after hostOps0 U (Proc.devRef .tc main_arg6) = U (Proc.devRef .tc main_arg6) := by
  after_results_simp <;> rfl
theorem front_arg7 : after hostOps0 U (Proc.devRef .tc main_arg7) = U (Proc.devRef .tc main_arg7) := by
  after_results_simp <;> rfl

variable (edges : Edges)

theorem mid_means (h1 : U (Proc.devRef .tc main_v1) = src edges) (h3 : U (Proc.devRef .tc main_v3) = dst edges)
    (h11 : U (Proc.devRef .tc main_v11) = degInv edges) :
    after hostOps1 U (Proc.devRef .tc main_v45) = meanByRecip (U (Proc.devRef .tc main_v30)) edges := by
  after_results_simp
  rw [h1, h3, h11]
  rfl
theorem mid_feats : after hostOps1 U (Proc.devRef .tc main_v30) = U (Proc.devRef .tc main_v30) := by
  after_results_simp <;> rfl
theorem mid_wl : after hostOps1 U (Proc.devRef .tc main_v46)
    = transpose S128x64 [1, 0] (U (Proc.devRef .tc main_arg5)) transposes_S64x128_S128x64_1_0 := by
  after_results_simp <;> rfl
theorem mid_wr : after hostOps1 U (Proc.devRef .tc main_v47)
    = transpose S128x64 [1, 0] (U (Proc.devRef .tc main_arg6)) transposes_S64x128_S128x64_1_0 := by
  after_results_simp <;> rfl
theorem mid_bias : after hostOps1 U (Proc.devRef .tc main_v48)
    = shapeCast S1x64 (U (Proc.devRef .tc main_arg7)) shapeCasts_S64_S1x64 := by
  after_results_simp <;> rfl
theorem mid_src : after hostOps1 U (Proc.devRef .tc main_v1) = U (Proc.devRef .tc main_v1) := by
  after_results_simp <;> rfl
theorem mid_dst : after hostOps1 U (Proc.devRef .tc main_v3) = U (Proc.devRef .tc main_v3) := by
  after_results_simp <;> rfl

theorem tail_scores (h1 : U (Proc.devRef .tc main_v1) = src edges) (h3 : U (Proc.devRef .tc main_v3) = dst edges) :
    after hostOps2 U (Proc.devRef .tc main_v68) = edgeScores (U (Proc.devRef .tc main_v49)) edges := by
  after_results_simp
  rw [h1, h3]
  rfl

end Stretches

/-! ## The chain -/

/-- The first layer's output, of the arguments. -/
def hiddenOf (x : FVec Ideal S100000x128 .f32) (edges : Edges) (w1l w1r : FVec Ideal S128x128 .f32) (b1 : FVec Ideal S128 .f32) :
    FVec Ideal S100000x128 .f32 :=
  denseRelu (meanByRecip x edges) x (transpose S128x128 [1, 0] w1l transposes_S128x128_S128x128_1_0)
    (transpose S128x128 [1, 0] w1r transposes_S128x128_S128x128_1_0) (shapeCast S1x128 b1 shapeCasts_S128_S1x128)

/-- The second layer's output, of the first layer's and the arguments. -/
def embedOf (h : FVec Ideal S100000x128 .f32) (edges : Edges) (w2l w2r : FVec Ideal S64x128 .f32) (b2 : FVec Ideal S64 .f32) :
    FVec Ideal S100000x64 .f32 :=
  dense (meanByRecip h edges) h (transpose S128x64 [1, 0] w2l transposes_S64x128_S128x64_1_0)
    (transpose S128x64 [1, 0] w2r transposes_S64x128_S128x64_1_0) (shapeCast S1x64 b2 shapeCasts_S64_S1x64)

variable (m : (ℓ : Loc nD τ sig) → Buf (Elt Ideal) ℓ) (ρ : Dev nD → PrngReg) (c : Dev nD)

/-- At the first call's exit its output array holds the first layer of the arguments. -/
theorem hidden_at_exit :
    W2 m ρ c (Proc.devRef .tc main_v30)
      = hiddenOf (m ((c : Thread nD τ).loc main_arg0)) (m ((c : Thread nD τ).loc main_arg1)) (m ((c : Thread nD τ).loc main_arg2))
          (m ((c : Thread nD τ).loc main_arg3)) (m ((c : Thread nD τ).loc main_arg4)) := by
  refine (W2_arr m ρ c 5).trans ((final0 (V1 m ρ) c).trans ?_)
  unfold layer1 hiddenOf
  show denseRelu (after hostOps0 (W0 m ρ c) (Proc.devRef .tc main_v26)) (after hostOps0 (W0 m ρ c) (Proc.devRef .tc main_arg0))
    (after hostOps0 (W0 m ρ c) (Proc.devRef .tc main_v27)) (after hostOps0 (W0 m ρ c) (Proc.devRef .tc main_v28))
    (after hostOps0 (W0 m ρ c) (Proc.devRef .tc main_v29)) = _
  rw [front_means, front_feats, front_wl, front_wr, front_bias]

/-- The source vector, the target vector and the reciprocal degrees survive the first call. -/
theorem src_at_exit : W2 m ρ c (Proc.devRef .tc main_v1) = src (m ((c : Thread nD τ).loc main_arg1)) :=
  (W2_of_ne m ρ c main_v1 (by decide)).trans (front_src (W0 m ρ c))
theorem dst_at_exit : W2 m ρ c (Proc.devRef .tc main_v3) = dst (m ((c : Thread nD τ).loc main_arg1)) :=
  (W2_of_ne m ρ c main_v3 (by decide)).trans (front_dst (W0 m ρ c))
theorem degInv_at_exit : W2 m ρ c (Proc.devRef .tc main_v11) = degInv (m ((c : Thread nD τ).loc main_arg1)) :=
  (W2_of_ne m ρ c main_v11 (by decide)).trans (front_degInv (W0 m ρ c))
theorem arg5_at_exit : W2 m ρ c (Proc.devRef .tc main_arg5) = m ((c : Thread nD τ).loc main_arg5) :=
  (W2_of_ne m ρ c main_arg5 (by decide)).trans (front_arg5 (W0 m ρ c))
theorem arg6_at_exit : W2 m ρ c (Proc.devRef .tc main_arg6) = m ((c : Thread nD τ).loc main_arg6) :=
  (W2_of_ne m ρ c main_arg6 (by decide)).trans (front_arg6 (W0 m ρ c))
theorem arg7_at_exit : W2 m ρ c (Proc.devRef .tc main_arg7) = m ((c : Thread nD τ).loc main_arg7) :=
  (W2_of_ne m ρ c main_arg7 (by decide)).trans (front_arg7 (W0 m ρ c))

/-- At the second call's exit its output array holds the second layer of the first layer of the arguments. -/
theorem embed_at_exit :
    W4 m ρ c (Proc.devRef .tc main_v49)
      = embedOf (hiddenOf (m ((c : Thread nD τ).loc main_arg0)) (m ((c : Thread nD τ).loc main_arg1)) (m ((c : Thread nD τ).loc main_arg2))
            (m ((c : Thread nD τ).loc main_arg3)) (m ((c : Thread nD τ).loc main_arg4)))
          (m ((c : Thread nD τ).loc main_arg1)) (m ((c : Thread nD τ).loc main_arg5)) (m ((c : Thread nD τ).loc main_arg6))
          (m ((c : Thread nD τ).loc main_arg7)) := by
  refine (W4_arr m ρ c 5).trans ((final1 (V3 m ρ) c).trans ?_)
  unfold layer2 embedOf
  show dense (after hostOps1 (W2 m ρ c) (Proc.devRef .tc main_v45)) (after hostOps1 (W2 m ρ c) (Proc.devRef .tc main_v30))
    (after hostOps1 (W2 m ρ c) (Proc.devRef .tc main_v46)) (after hostOps1 (W2 m ρ c) (Proc.devRef .tc main_v47))
    (after hostOps1 (W2 m ρ c) (Proc.devRef .tc main_v48)) = _
  rw [mid_means (W2 m ρ c) _ (src_at_exit m ρ c) (dst_at_exit m ρ c) (degInv_at_exit m ρ c), mid_feats, mid_wl, mid_wr, mid_bias,
    hidden_at_exit, arg5_at_exit, arg6_at_exit, arg7_at_exit]

/-- The source and target vectors survive the second stretch and the second call. -/
theorem src_at_tail : W4 m ρ c (Proc.devRef .tc main_v1) = src (m ((c : Thread nD τ).loc main_arg1)) :=
  (W4_of_ne m ρ c main_v1 (by decide)).trans ((mid_src (W2 m ρ c)).trans (src_at_exit m ρ c))
theorem dst_at_tail : W4 m ρ c (Proc.devRef .tc main_v3) = dst (m ((c : Thread nD τ).loc main_arg1)) :=
  (W4_of_ne m ρ c main_v3 (by decide)).trans ((mid_dst (W2 m ρ c)).trans (dst_at_exit m ρ c))

/-- The kernel's result: the edge scores of the second layer of the first layer, each over the means by reciprocal. -/
theorem result_eq :
    W5 m ρ c (Proc.devRef .tc main_v68)
      = edgeScores
          (embedOf (hiddenOf (m ((c : Thread nD τ).loc main_arg0)) (m ((c : Thread nD τ).loc main_arg1)) (m ((c : Thread nD τ).loc main_arg2))
              (m ((c : Thread nD τ).loc main_arg3)) (m ((c : Thread nD τ).loc main_arg4)))
            (m ((c : Thread nD τ).loc main_arg1)) (m ((c : Thread nD τ).loc main_arg5)) (m ((c : Thread nD τ).loc main_arg6))
            (m ((c : Thread nD τ).loc main_arg7)))
          (m ((c : Thread nD τ).loc main_arg1)) := by
  show after hostOps2 (W4 m ρ c) (Proc.devRef .tc main_v68) = _
  rw [tail_scores (W4 m ρ c) _ (src_at_tail m ρ c) (dst_at_tail m ρ c), embed_at_exit]

end Cert.KernelIdeal.Fold

end
-- ==== Proof.ReferenceHost.lean ====
/-
  The idealized reference, as whole-array functions of the edge list and a feature table.

  The reference gathers rows at the wrapped sources, scatter-adds them at the targets, and DIVIDES each node's row
  by the node's degree clamped below by one.  A layer is the product of the means with the transposed left weights,
  plus the bias, plus the product of the node features with the transposed right weights; the first layer is
  rectified.  An edge's score is the inner product of the second layer's rows of its two wrapped endpoints.
-/
import proofs.«182080_j81243601371376_2_alg».proof.Proof.Gen.ReferenceIdeal
import Idealize.ShloMosaic.PureOps.Ideal

noncomputable section

namespace Cert.ReferenceIdeal.HostSide

open Cert.ReferenceIdeal Cert.ReferenceIdeal.Gen Idealize.ShloMosaic

abbrev Edges := (⟨S2x1600000, .i32⟩ : BufTy).Contents (Elt Ideal)
abbrev EdgeVec := (⟨S1600000, .i32⟩ : BufTy).Contents (Elt Ideal)
abbrev EdgeCol := (⟨S1600000x1, .i32⟩ : BufTy).Contents (Elt Ideal)

/-- The sources: row 0 of the edge table, as a vector. -/
def src (edges : Edges) : EdgeVec :=
  shapeCast S1600000 (extractStridedSlice S1x1600000 ![0, 0] edges slices_S2x1600000_S1x1600000_0_0) shapeCasts_S1x1600000_S1600000

/-- The targets: row 1. -/
def dst (edges : Edges) : EdgeVec :=
  shapeCast S1600000 (extractStridedSlice S1x1600000 ![1, 0] edges slices_S2x1600000_S1x1600000_1_0) shapeCasts_S1x1600000_S1600000

/-- A vector of node numbers with the negative ones wrapped by the node count, as a column. -/
def wrapCol (v : EdgeVec) : EdgeCol :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- A vector of node numbers as a column, unwrapped. -/
def rawCol (v : EdgeVec) : EdgeCol := broadcastInDim S1600000x1 ![0] bcast_S1600000_S1600000x1_0 v

/-- The all-ones vector over the nodes. -/
def onesN : FVec Ideal S100000 .f32 := broadcastInDim S100000 ![] bcast_S_S100000 (constant S_ .f32 0x3F800000#32)

/-- Each node's degree (ones scatter-added at the targets), clamped below by one. -/
def degMax (edges : Edges) : FVec Ideal S100000 .f32 :=
  maximumf (Host.scatterAdd scatter_S100000_S1600000x1_S1600000_n_0_0_1
      (broadcastInDim S100000 ![] bcast_S_S100000 (constant S_ .f32 0x00000000#32)) (rawCol (dst edges))
      (broadcastInDim S1600000 ![] bcast_S_S1600000 (constant S_ .f32 0x3F800000#32)))
    onesN

/-- The rows of a 128-column table gathered at the wrapped sources and scatter-added at the targets. -/
def neighbourSum (feat : FVec Ideal S100000x128 .f32) (edges : Edges) : FVec Ideal S100000x128 .f32 :=
  Host.scatterAdd scatter_S100000x128_S1600000x1_S1600000x128_1_0_0_1
    (broadcastInDim S100000x128 ![] bcast_S_S100000x128 (constant S_ .f32 0x00000000#32)) (rawCol (dst edges))
    (Host.gather gather_S100000x128_S1600000x1_S1600000x128_1_0_n_n_0_1_1128 feat (wrapCol (src edges)))

/-- The neighbourhood mean as the reference takes it: the neighbour sum divided by the clamped degree of the row. -/
def meanByDiv (feat : FVec Ideal S100000x128 .f32) (edges : Edges) : FVec Ideal S100000x128 .f32 :=
  Host.divf (neighbourSum feat edges)
    (broadcastInDim S100000x128 ![0, 1] bcast_S100000x1_S100000x128_0_1 (broadcastInDim S100000x1 ![0] bcast_S100000_S100000x1_0 (degMax edges)))

/-- The first layer: means × left weights + bias + features × right weights, rectified. -/
def hiddenLayer (x : FVec Ideal S100000x128 .f32) (edges : Edges) (w1l w1r : FVec Ideal S128x128 .f32) (b1 : FVec Ideal S128 .f32) :
    FVec Ideal S100000x128 .f32 :=
  maximumf
    (addf
      (addf
        (Host.dotGeneral dot_S100000x128_S128x128_S100000x128_1_0_0_1_n_n none (meanByDiv x edges)
          (transpose S128x128 [1, 0] w1l transposes_S128x128_S128x128_1_0))
        (broadcastInDim S100000x128 ![0, 1] bcast_S1x128_S100000x128_0_1 (broadcastInDim S1x128 ![1] bcast_S128_S1x128_1 b1)))
      (Host.dotGeneral dot_S100000x128_S128x128_S100000x128_1_0_0_1_n_n none x
        (transpose S128x128 [1, 0] w1r transposes_S128x128_S128x128_1_0)))
    (broadcastInDim S100000x128 ![] bcast_S_S100000x128 (constant S_ .f32 0x00000000#32))

/-- The second layer, 64 columns, not rectified. -/
def embedLayer (h : FVec Ideal S100000x128 .f32) (edges : Edges) (w2l w2r : FVec Ideal S64x128 .f32) (b2 : FVec Ideal S64 .f32) :
    FVec Ideal S100000x64 .f32 :=
  addf
    (addf
      (Host.dotGeneral dot_S100000x128_S128x64_S100000x64_1_0_0_1_n_n none (meanByDiv h edges)
        (transpose S128x64 [1, 0] w2l transposes_S64x128_S128x64_1_0))
      (broadcastInDim S100000x64 ![0, 1] bcast_S1x64_S100000x64_0_1 (broadcastInDim S1x64 ![1] bcast_S64_S1x64_1 b2)))
    (Host.dotGeneral dot_S100000x128_S128x64_S100000x64_1_0_0_1_n_n none h
      (transpose S128x64 [1, 0] w2r transposes_S64x128_S128x64_1_0))

/-- The edge scores: for each edge the inner product of the 64-column rows of its two (wrapped) endpoints. -/
def edgeScores (z : FVec Ideal S100000x64 .f32) (edges : Edges) : FVec Ideal S1600000 .f32 :=
  Host.reduceAdd
    (mulf (Host.gather gather_S100000x64_S1600000x1_S1600000x64_1_0_n_n_0_1_164 z (wrapCol (src edges)))
      (Host.gather gather_S100000x64_S1600000x1_S1600000x64_1_0_n_n_0_1_164 z (wrapCol (dst edges))))
    (constant S_ .f32 0x00000000#32) reducesTo_S1600000x64_S1600000_d1 h_S_

end Cert.ReferenceIdeal.HostSide

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRecipMean.lean ====
/-
  Small facts about extended-real arithmetic and identity conversions that a mean over a clamped count needs; none
  mentions a program.

  * a product with the reciprocal of a NONZERO divisor is the quotient, at the infinities too (the quotient by d ≠ 0 is
    by definition the product with d⁻¹, and 1 / d = 1 · d⁻¹);
  * something clamped below by one is not zero; the f32 word 0x3F800000 denotes one;
  * the host quotient of two arrays read at an index; and rounding a table to bf16 before a gather, widening after,
    is the plain gather (both conversions are the identity on extended reals).
-/
import Idealize.ShloMosaic.Lib.ValueIdx
import Idealize.ShloMosaic.PureOps.Ideal.Laws

noncomputable section

namespace Cert.LibRecipMean

open Idealize.ShloMosaic Idealize.ShloMosaic.ValueIdx

/-- A product with the reciprocal of a nonzero divisor is the quotient. -/
theorem mul_recip_eq_div (s d : EReal) (hd : d ≠ 0) : s * Ideal.div 1 d = Ideal.div s d := by
  unfold Ideal.div
  rw [if_neg hd, if_neg hd, one_mul]

/-- The f32 word of one denotes one. -/
theorem ofBits_one_f32 : Ideal.ofBits .f32 0x3F800000#32 = 1 := by
  simp [Ideal.ofBits, Ideal.ieee]
  norm_cast
  norm_num

/-- Something clamped below by one is not zero. -/
theorem clamp_ne_zero (y : EReal) : max y 1 ≠ 0 := by
  intro h
  have h1 : (1 : EReal) ≤ max y 1 := le_max_right _ _
  rw [h] at h1
  exact absurd h1 (not_le.mpr (by exact_mod_cast (zero_lt_one : (0 : ℝ) < 1)))

/-- The host quotient of two arrays reads, at an index, the quotient of the entries. -/
theorem hostDivf_apply {s : Shape} {φ : FTy} (a b : FVec Ideal s φ) (i : s.Idx) : Host.divf a b i = Ideal.div (a i) (b i) := rfl

/-- Rounding a table before a gather and widening the gathered rows is the plain gather. -/
theorem gather_rounded {s si t : Shape} {w : Nat} (D : GatherDims s si t) (x : FVec Ideal s .f32) (idx : IVec si w)
    (h : FTy.bits .bf16 < FTy.bits .f32) :
    extf .f32 (Host.gather D (truncf .bf16 x h) idx) h = Host.gather D x idx := rfl

end Cert.LibRecipMean

end
-- ==== Proof.MeanBridge.lean ====
/-
  The two ways of taking a neighbourhood mean agree, and so do the two ways of scoring the edges.

  On the extended reals a quotient by a NONZERO divisor d is by definition the product with d⁻¹, and the reciprocal
  1 / d is 1 · d⁻¹ = d⁻¹; so  s · (1 / d) = s / d  for every extended real s and every d ≠ 0, the infinite ones
  included.  The divisor here is a node's degree clamped below by one: the larger of something and one is at least
  one, hence not zero.  No property of the degree itself is used.

  Rounding a table to bf16 before gathering rows of it, and widening the gathered rows again, changes nothing on the
  extended reals: both conversions are the identity there, and a gather only moves entries.
-/
import proofs.«182080_j81243601371376_2_alg».proof.Proof.KernelHost
import proofs.«182080_j81243601371376_2_alg».proof.Proof.ReferenceHost
import proofs.«182080_j81243601371376_2_alg».proof.Proof.LibJoinedRows
import proofs.«182080_j81243601371376_2_alg».proof.Proof.LibRecipMean
import Idealize.ShloMosaic.Lib.ValueIdx
import Idealize.ShloMosaic.PureOps.Ideal.Laws

noncomputable section

namespace Cert.GraphConv

open Idealize.ShloMosaic Idealize.ShloMosaic.ValueIdx Cert.LibJoinedRows Cert.LibRecipMean

/-- The all-ones vector reads one everywhere. -/
theorem onesN_apply (n : Fin 100000) : Cert.KernelIdeal.HostSide.onesN (ix1 n) = 1 := by
  unfold Cert.KernelIdeal.HostSide.onesN
  rw [bcast_scalar_apply, constant_apply]
  exact ofBits_one_f32

/-- Both programs clamp the same degree vector. -/
theorem degMax_eq (edges : Cert.KernelIdeal.HostSide.Edges) :
    Cert.KernelIdeal.HostSide.degMax edges = Cert.ReferenceIdeal.HostSide.degMax edges := rfl

/-- Both programs sum the same neighbour rows. -/
theorem neighbourSum_eq (feat : FVec Ideal Cert.KernelIdeal.S100000x128 .f32) (edges : Cert.KernelIdeal.HostSide.Edges) :
    Cert.KernelIdeal.HostSide.neighbourSum feat edges = Cert.ReferenceIdeal.HostSide.neighbourSum feat edges := by
  unfold Cert.KernelIdeal.HostSide.neighbourSum Cert.ReferenceIdeal.HostSide.neighbourSum
  rw [gather_rounded]
  rfl

/-- The clamped degree of a node is not zero. -/
theorem degMax_ne_zero (edges : Cert.KernelIdeal.HostSide.Edges) (n : Fin 100000) :
    Cert.KernelIdeal.HostSide.degMax edges (ix1 n) ≠ 0 := by
  unfold Cert.KernelIdeal.HostSide.degMax
  rw [maximumf_apply, onesN_apply]
  exact clamp_ne_zero _

/-- The mean by the reciprocal degree is the mean by division. -/
theorem mean_eq (feat : FVec Ideal Cert.KernelIdeal.S100000x128 .f32) (edges : Cert.KernelIdeal.HostSide.Edges) :
    Cert.KernelIdeal.HostSide.meanByRecip feat edges = Cert.ReferenceIdeal.HostSide.meanByDiv feat edges := by
  funext i
  obtain ⟨n, d, rfl⟩ : ∃ (n : Fin 100000) (d : Fin 128), i = ix2 n d := ⟨i 0, i 1, eq_ix2 i⟩
  unfold Cert.KernelIdeal.HostSide.meanByRecip Cert.ReferenceIdeal.HostSide.meanByDiv
  rw [mulf_apply, bcast_col_rows_apply, bcast_vec_col_apply, hostDivf_apply, bcast_col_rows_apply, bcast_vec_col_apply,
    ← neighbourSum_eq, ← degMax_eq]
  unfold Cert.KernelIdeal.HostSide.degInv
  rw [hostDivf_apply, onesN_apply]
  exact mul_recip_eq_div _ _ (degMax_ne_zero edges n)

/-- Both programs score the edges of a table alike. -/
theorem edgeScores_eq (z : FVec Ideal Cert.KernelIdeal.S100000x64 .f32) (edges : Cert.KernelIdeal.HostSide.Edges) :
    Cert.KernelIdeal.HostSide.edgeScores z edges = Cert.ReferenceIdeal.HostSide.edgeScores z edges := by
  unfold Cert.KernelIdeal.HostSide.edgeScores Cert.ReferenceIdeal.HostSide.edgeScores
  rw [gather_rounded, gather_rounded]
  rfl

end Cert.GraphConv

end
-- ==== Proof.ReferenceValue.lean ====
/-
  What the idealized reference computes, in the layer vocabulary.

  The reference's run ends with its result at one long composed term of the argument arrays.  Read in stages it is:
  the edge scores of the second layer of the first layer of the node features, each layer taken over the
  neighbourhood means by division.  Each host layer — product, plus bias, plus product — is the dense layer entry by
  entry, the first one rectified against a zero array.
-/
import proofs.«182080_j81243601371376_2_alg».proof.Proof.Gen.ReferenceIdeal.Run
import proofs.«182080_j81243601371376_2_alg».proof.Proof.ReferenceHost
import proofs.«182080_j81243601371376_2_alg».proof.Proof.LibDenseLayer
import proofs.«182080_j81243601371376_2_alg».proof.Proof.LibJoinedRows

set_option maxRecDepth 16384

noncomputable section

namespace Cert.ReferenceIdeal.RefValue

open Cert.ReferenceIdeal Cert.ReferenceIdeal.Gen Cert.ReferenceIdeal.HostSide Cert.LibDenseLayer Cert.LibPlainDot
open Idealize.ShloMosaic Idealize.ShloMosaic.TcCoe Idealize.ShloMosaic.ValueIdx Idealize.SL.Sem

/-- Both host contractions are plain matrix products. -/
theorem plain128 : Plain dot_S100000x128_S128x128_S100000x128_1_0_0_1_n_n := ⟨rfl, rfl, rfl, rfl, rfl, rfl⟩
theorem plain64 : Plain dot_S100000x128_S128x64_S100000x64_1_0_0_1_n_n := ⟨rfl, rfl, rfl, rfl, rfl, rfl⟩

/-- The run's result term is the edge scores of the second layer of the first layer. -/
theorem result_stages (m : (ℓ : Loc nD τ sig) → Buf (Elt Ideal) ℓ) (c : Dev nD) :
    Value.res_main_v74 (F := Ideal) m c
      = edgeScores
          (embedLayer
            (hiddenLayer (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4)))
            (m ((c.tc : Thread nD τ).loc main_arg1)) (m ((c.tc : Thread nD τ).loc main_arg5)) (m ((c.tc : Thread nD τ).loc main_arg6))
            (m ((c.tc : Thread nD τ).loc main_arg7)))
          (m ((c.tc : Thread nD τ).loc main_arg1)) := by
  unfold Value.res_main_v74
  rfl

/-- The first host layer is the rectified dense layer over the means by division. -/
theorem hiddenLayer_eq (x : FVec Ideal S100000x128 .f32) (edges : Edges) (w1l w1r : FVec Ideal S128x128 .f32) (b1 : FVec Ideal S128 .f32) :
    hiddenLayer x edges w1l w1r b1
      = denseRelu (meanByDiv x edges) x (transpose S128x128 [1, 0] w1l transposes_S128x128_S128x128_1_0)
          (transpose S128x128 [1, 0] w1r transposes_S128x128_S128x128_1_0) (shapeCast S1x128 b1 (by decide)) := by
  unfold hiddenLayer Host.dotGeneral
  rw [host_dense plain128 _ _ _ _ _ _ _ (by decide)]
  funext i
  rw [maximumf_apply, Cert.LibJoinedRows.bcast_scalar_apply, constant_apply]
  rfl

/-- The second host layer is the dense layer over the means by division. -/
theorem embedLayer_eq (h : FVec Ideal S100000x128 .f32) (edges : Edges) (w2l w2r : FVec Ideal S64x128 .f32) (b2 : FVec Ideal S64 .f32) :
    embedLayer h edges w2l w2r b2
      = dense (meanByDiv h edges) h (transpose S128x64 [1, 0] w2l transposes_S64x128_S128x64_1_0)
          (transpose S128x64 [1, 0] w2r transposes_S64x128_S128x64_1_0) (shapeCast S1x64 b2 (by decide)) := by
  unfold embedLayer Host.dotGeneral
  exact host_dense plain64 _ _ _ _ _ _ _ (by decide)

end Cert.ReferenceIdeal.RefValue

end
-- ==== Proof.lean ====
/-
  Two layers of a graph convolution followed by an edge decoder: the kernel against its plain reference.

  Both programs compute, for every edge, the inner product of the second-layer rows of its two endpoints.  A layer
  sends a feature table to (neighbourhood means) · Wlᵀ + (the table) · Wrᵀ + bias, the first layer rectified.  They
  differ in three ways, none visible on the extended reals:
    * the kernel rounds tables to bf16 before gathering rows and widens them after — conversions are the identity;
    * the kernel forms a mean as sum · (1 / d), the reference as sum / d, with d the degree clamped below by one —
      a quotient by a nonzero d is the product with d⁻¹, and d ≥ 1 is never zero;
    * the kernel adds the bias after both matrix products, the reference between them — addition is commutative and
      associative; and the kernel computes each layer in 25 row blocks, which tile the rows.
  The gathers and scatter-adds are the same operations on the same index vectors in both programs and are never
  opened.  No finiteness of the inputs is used.

  The three frames are the generated ones (the reference's is its generated run with the result dropped); the
  idealization ledger is empty.
-/
import proofs.«182080_j81243601371376_2_alg».proof.Defs
import proofs.«182080_j81243601371376_2_alg».proof.Proof.Gen.Kernel
import proofs.«182080_j81243601371376_2_alg».proof.Proof.Gen.Kernel.Frame
import proofs.«182080_j81243601371376_2_alg».proof.Proof.Gen.KernelIdeal
import proofs.«182080_j81243601371376_2_alg».proof.Proof.Gen.KernelIdeal.Frame
import proofs.«182080_j81243601371376_2_alg».proof.Proof.Gen.ReferenceIdeal
import proofs.«182080_j81243601371376_2_alg».proof.Proof.Gen.ReferenceIdeal.Run
import proofs.«182080_j81243601371376_2_alg».proof.Proof.Gen.Pre_finite_inputs
import proofs.«182080_j81243601371376_2_alg».proof.Proof.KernelRun
import proofs.«182080_j81243601371376_2_alg».proof.Proof.KernelFold
import proofs.«182080_j81243601371376_2_alg».proof.Proof.MeanBridge
import proofs.«182080_j81243601371376_2_alg».proof.Proof.ReferenceValue

set_option maxRecDepth 16384

noncomputable section

namespace Cert.Proof

open Idealize.ShloMosaic Idealize.ShloMosaic.TcCoe Idealize.SL.Sem

/-- The kernel's closed form is the reference's: the edge scores agree once the layers do, each layer is the same
    dense layer once the means agree, and the mean by reciprocal is the mean by division. -/
theorem value_eq (x : FVec Ideal Cert.KernelIdeal.S100000x128 .f32) (edges : Cert.KernelIdeal.HostSide.Edges)
    (w1l w1r : FVec Ideal Cert.KernelIdeal.S128x128 .f32) (b1 : FVec Ideal Cert.KernelIdeal.S128 .f32)
    (w2l w2r : FVec Ideal Cert.KernelIdeal.S64x128 .f32) (b2 : FVec Ideal Cert.KernelIdeal.S64 .f32) :
    Cert.KernelIdeal.HostSide.edgeScores
        (Cert.KernelIdeal.Fold.embedOf (Cert.KernelIdeal.Fold.hiddenOf x edges w1l w1r b1) edges w2l w2r b2) edges
      = Cert.ReferenceIdeal.HostSide.edgeScores
          (Cert.ReferenceIdeal.HostSide.embedLayer (Cert.ReferenceIdeal.HostSide.hiddenLayer x edges w1l w1r b1) edges w2l w2r b2) edges := by
  rw [Cert.GraphConv.edgeScores_eq, Cert.ReferenceIdeal.RefValue.hiddenLayer_eq, Cert.ReferenceIdeal.RefValue.embedLayer_eq]
  unfold Cert.KernelIdeal.Fold.embedOf Cert.KernelIdeal.Fold.hiddenOf
  rw [Cert.GraphConv.mean_eq, Cert.GraphConv.mean_eq]

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs run, and end with equal results: the kernel's at the last valuation of its chain, which
    is its closed form of the arguments; the reference's at its composed term, which is the same closed form. -/
theorem algebraic : Cert.algebraic_KernelIdeal_ReferenceIdeal := by
  intro m ρ m' ρ' _ hagree
  refine ⟨fun c => Cert.KernelIdeal.Gen.W5 m ρ c (Proc.devRef .tc Cert.KernelIdeal.main_v68), Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  show _ = Cert.KernelIdeal.Gen.W5 m ρ c (Proc.devRef .tc Cert.KernelIdeal.main_v68)
  rw [Cert.ReferenceIdeal.RefValue.result_stages, Cert.KernelIdeal.Fold.result_eq, a0, a1, a2, a3, a4, a5, a6, a7]
  exact (value_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
